-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x128 : Shape := ⟨3, ![8, 32768, 128]⟩
abbrev S128x128 : Shape := ⟨2, ![128, 128]⟩
abbrev S_ : Shape := ⟨0, ![]⟩

class Facts : Prop where
  bcast_S_S8x32768x128 : S_.BroadcastsInDim S8x32768x128 (![] : Fin 0 → Fin S8x32768x128.rank)
  reducesTo_S8x32768x128_S_d0_1_2 : S8x32768x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S8x32768x128 .f32) (main_arg1 : FVec F S128x128 .f32) (main_arg2 : FVec F S128x128 .f32) (main_arg3 : FVec F S128x128 .f32) : IVec S_ 1 :=
  let main_v0 : FVec F S8x32768x128 .f32 := Host.absf main_arg0
  let main_cst : FVec F S_ .f32 := constant S_ .f32 0x7F800000#32
  let main_v1 : FVec F S8x32768x128 .f32 := broadcastInDim S8x32768x128 ![] bcast_S_S8x32768x128 main_cst
  let main_v2 : IVec S8x32768x128 1 := cmpf .olt main_v0 main_v1
  let main_c : IVec S_ 1 := constantI S_ 1 1#1
  let main_v3 : IVec S_ 1 := (fun x v => Host.reduce IntOp.andi x v reducesTo_S8x32768x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S8x32768x128 : Shape := ⟨3, ![8, 32768, 128]⟩
abbrev S128x128 : Shape := ⟨2, ![128, 128]⟩
abbrev S8x1x128 : Shape := ⟨3, ![8, 1, 128]⟩
abbrev S1x8192x128 : Shape := ⟨3, ![1, 8192, 128]⟩
abbrev S1x1x128 : Shape := ⟨3, ![1, 1, 128]⟩
abbrev S1x128 : Shape := ⟨2, ![1, 128]⟩
abbrev S8192x128 : Shape := ⟨2, ![8192, 128]⟩
abbrev S128 : Shape := ⟨1, ![128]⟩

abbrev nBuf : Space → Nat
  | .hbm => 6
  | .vmem => 13
  | .smem => 0
  | _ => 0

abbrev bufTy : (tb : Table) → Fin (tcTables nBuf tb) → BufTy
  | .hbm, ⟨0, _⟩ => ⟨S8x32768x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S8x1x128, .f32⟩
  | .hbm, ⟨5, _⟩ => ⟨S8x32768x128, .f32⟩
  | .local _ .vmem, ⟨0, _⟩ => ⟨S1x8192x128, .f32⟩
  | .local _ .vmem, ⟨1, _⟩ => ⟨S1x8192x128, .f32⟩
  | .local _ .vmem, ⟨2, _⟩ => ⟨S1x1x128, .f32⟩
  | .local _ .vmem, ⟨3, _⟩ => ⟨S1x1x128, .f32⟩
  | .local _ .vmem, ⟨4, _⟩ => ⟨S1x8192x128, .f32⟩
  | .local _ .vmem, ⟨5, _⟩ => ⟨S1x8192x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S1x1x128, .f32⟩
  | .local _ .vmem, ⟨10, _⟩ => ⟨S1x1x128, .f32⟩
  | .local _ .vmem, ⟨11, _⟩ => ⟨S1x8192x128, .f32⟩
  | .local _ .vmem, ⟨12, _⟩ => ⟨S1x8192x128, .f32⟩
  | _, _ => ⟨S8x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem4_1 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8192x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  reduces_S8192x128_S128 : S8192x128.Reduces [0] S128
  shapeCasts_S128_S1x128 : S128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  reduces_S128x128_S128 : S128x128.Reduces [0] S128
  broadcasts_S1x128_S8192x128 : S1x128.Broadcasts S8192x128
  shapeCasts_S8192x128_S1x8192x128 : S8192x128.ShapeCasts S1x8192x128
  dot_S8192x128_S128x128_S8192x128_1_0_0_1_n_n_wf : DotDims.WF S8192x128 S128x128 S8192x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S8x32768x128.size a
  hwx0_0 : ∀ i : grid0.Coords, EltTy.bits .f32 = 32 ∨ (Rect.block (s := S8x32768x128) S1x8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S8x1x128.size a
  hwx0_1 : ∀ i : grid0.Coords, EltTy.bits .f32 = 32 ∨ (Rect.block (s := S8x1x128) S1x1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x8192x128.size a ≤ S8x32768x128.size a
  hwx1_0 : ∀ i : grid1.Coords, EltTy.bits .f32 = 32 ∨ (Rect.block (s := S8x32768x128) S1x8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S8x1x128.size a
  hwx1_4 : ∀ i : grid1.Coords, EltTy.bits .f32 = 32 ∨ (Rect.block (s := S8x1x128) S1x1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8192x128.size a ≤ S8x32768x128.size a
  hwx1_5 : ∀ i : grid1.Coords, EltTy.bits .f32 = 32 ∨ (Rect.block (s := S8x32768x128) S1x8192x128.size (cc1_transform_5 i) (hinb1_5 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_arg0) S1x8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1x8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x1x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1) S1x8192x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x32768x128 : Shape := ⟨3, ![8, 32768, 128]⟩
abbrev S128x128 : Shape := ⟨2, ![128, 128]⟩
abbrev S_ : Shape := ⟨0, ![]⟩
abbrev S8x128 : Shape := ⟨2, ![8, 128]⟩
abbrev S8x1x128 : Shape := ⟨3, ![8, 1, 128]⟩
abbrev S128 : Shape := ⟨1, ![128]⟩
abbrev S1x1x128 : Shape := ⟨3, ![1, 1, 128]⟩

abbrev nBuf : Space → Nat
  | .hbm => 22
  | .vmem => 0
  | .smem => 0
  | _ => 0

abbrev bufTy : (tb : Table) → Fin (tcTables nBuf tb) → BufTy
  | .hbm, ⟨0, _⟩ => ⟨S8x32768x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S_, .f32⟩
  | .hbm, ⟨5, _⟩ => ⟨S8x128, .f32⟩
  | .hbm, ⟨6, _⟩ => ⟨S8x1x128, .f32⟩
  | .hbm, ⟨7, _⟩ => ⟨S8x32768x128, .f32⟩
  | .hbm, ⟨8, _⟩ => ⟨S8x1x128, .f32⟩
  | .hbm, ⟨9, _⟩ => ⟨S_, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S8x32768x128, .f32⟩
  | .hbm, ⟨15, _⟩ => ⟨S8x32768x128, .f32⟩
  | .hbm, ⟨16, _⟩ => ⟨S_, .f32⟩
  | .hbm, ⟨17, _⟩ => ⟨S8x32768x128, .f32⟩
  | .hbm, ⟨18, _⟩ => ⟨S8x32768x128, .f32⟩
  | .hbm, ⟨19, _⟩ => ⟨S1x1x128, .f32⟩
  | .hbm, ⟨20, _⟩ => ⟨S8x32768x128, .f32⟩
  | .hbm, ⟨21, _⟩ => ⟨S8x32768x128, .f32⟩
  | _, _ => ⟨S8x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  reducesTo_S8x32768x128_S8x128_d1 : S8x32768x128.ReducesTo [1] S8x128
  h_S_ : 0 < S_.numel
  bcast_S8x128_S8x1x128_0_2 : S8x128.BroadcastsInDim S8x1x128 (![0, 2] : Fin 2 → Fin S8x1x128.rank)
  reducesTo_S128x128_S128_d0 : S128x128.ReducesTo [0] S128
  bcast_S_S128 : S_.BroadcastsInDim S128 (![] : Fin 0 → Fin S128.rank)
  bcast_S8x1x128_S8x32768x128_0_1_2 : S8x1x128.BroadcastsInDim S8x32768x128 (![0, 1, 2] : Fin 3 → Fin S8x32768x128.rank)
  bcast_S_S8x32768x128 : S_.BroadcastsInDim S8x32768x128 (![] : Fin 0 → Fin S8x32768x128.rank)
  bcast_S128_S1x1x128_2 : S128.BroadcastsInDim S1x1x128 (![2] : Fin 1 → Fin S1x1x128.rank)
  bcast_S1x1x128_S8x32768x128_0_1_2 : S1x1x128.BroadcastsInDim S8x32768x128 (![0, 1, 2] : Fin 3 → Fin S8x32768x128.rank)
  dot_S8x32768x128_S128x128_S8x32768x128_2_0_01_1_n_n_wf : DotDims.WF S8x32768x128 S128x128 S8x32768x128 [2] [0] [0, 1] [1] [] []
  dot_S8x1x128_S128x128_S8x1x128_2_0_01_1_n_n_wf : DotDims.WF S8x1x128 S128x128 S8x1x128 [2] [0] [0, 1] [1] [] []

variable [Facts₀]

def dot_S8x32768x128_S128x128_S8x32768x128_2_0_01_1_n_n : DotDims S8x32768x128 S128x128 S8x32768x128 where
  lhsContracting := [2]
  rhsContracting := [0]
  lhsNonContracting := [0, 1]
  rhsNonContracting := [1]
  lhsBatch := []
  rhsBatch := []
  wf := dot_S8x32768x128_S128x128_S8x32768x128_2_0_01_1_n_n_wf
def dot_S8x1x128_S128x128_S8x1x128_2_0_01_1_n_n : DotDims S8x1x128 S128x128 S8x1x128 where
  lhsContracting := [2]
  rhsContracting := [0]
  lhsNonContracting := [0, 1]
  rhsNonContracting := [1]
  lhsBatch := []
  rhsBatch := []
  wf := dot_S8x1x128_S128x128_S8x1x128_2_0_01_1_n_n_wf

class Facts : Prop extends Facts₀ where

variable [Facts]
-- ==== Proof.KernelRun.lean ====
/-
  The kernel program's run, with its result array named.

  The program is two kernel launches in a row. Its frame module follows every buffer of the core through the two
  launches: `W0` at the start, `W1` after the first launch, `W2` after the second. Here the same run is stated with
  one more reading of the final state: the result buffer holds `W2`'s contents for it (and the arguments are as
  launched).
-/
import proofs.«172899_j57939108823731_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at `W2`'s
    contents and the four arguments as launched. -/
theorem run_main : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end Cert.KernelIdeal.RunValue

end
-- ==== Proof.Spec.lean ====
/-
  The function both programs compute, over the extended reals, index by index.

  For x : [8, 32768, 128] and alpha, beta, bias : [128, 128] the result at (b, d, o) is

      ((Σ_c x(b,d,c) · alpha(c,o)) + (Σ_c s(b,c) · beta(c,o))) · (1/128) + (Σ_r bias(r,o)) · (1/128),

  where s(b,c) = Σ_d x(b,d,c) is the sum of column (b, ·, c) of x.  The column sum is also written as a prefix
  sum over the first n entries of the column, so that adding 8192 further entries at a time reaches it in four steps.
  The two float words the programs spell, 128 and 1/128, are evaluated here, once.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SX : Shape := ⟨3, ![8, 32768, 128]⟩
abbrev SM : Shape := ⟨2, ![128, 128]⟩
abbrev SS : Shape := ⟨3, ![8, 1, 128]⟩

/-! ## The two literal words -/

/-- The word of `128.0` denotes the real 128. -/
theorem ofBits_128 : Ideal.ofBits .f32 0x43000000#32 = ((128 : ℝ) : EReal) := by
  simp [Ideal.ofBits, Ideal.ieee, -EReal.coe_mul]; norm_num

/-- The word of `0.0078125` denotes the real 1/128 (a power of two: no rounding). -/
theorem ofBits_inv128 : Ideal.ofBits .f32 0x3C000000#32 = ((1 / 128 : ℝ) : EReal) := by
  simp [Ideal.ofBits, Ideal.ieee, -EReal.coe_mul]; norm_num

/-- Dividing by the word of 128 is multiplying by 1/128, at the infinities too. -/
theorem div_128 (y : EReal) : Ideal.div y (Ideal.ofBits .f32 0x43000000#32) = y * ((1 / 128 : ℝ) : EReal) := by
  rw [ofBits_128]; exact Ideal.div_coe (by norm_num) y

/-! ## A column of x summed entry by entry -/

variable (X : SX.Idx → EReal)

/-- Entry `d` of column (b, ·, c) of x; zero past the column's end. -/
def colEntry (b : Fin 8) (c : Fin 128) (d : ℕ) : EReal :=
  if h : d < 32768 then X (ix3 b ⟨d, h⟩ c) else 0

/-- The sum of the column's first `n` entries. -/
def colPrefix (b : Fin 8) (c : Fin 128) (n : ℕ) : EReal := ∑ d ∈ Finset.range n, colEntry X b c d

/-- The whole column's sum. -/
def colSumAt (b : Fin 8) (c : Fin 128) : EReal := ∑ d : Fin 32768, X (ix3 b d c)

theorem colPrefix_zero (b : Fin 8) (c : Fin 128) : colPrefix X b c 0 = 0 := by
  unfold colPrefix; exact Finset.sum_range_zero _

/-- A prefix sum plus the next 8192 entries is the prefix sum 8192 entries further. -/
theorem colPrefix_add (b : Fin 8) (c : Fin 128) (n : ℕ) (T : Fin 8192 → EReal)
    (hT : ∀ r, T r = colEntry X b c (n + r.val)) :
    colPrefix X b c n + ∑ r : Fin 8192, T r = colPrefix X b c (n + 8192) := by
  unfold colPrefix
  rw [Finset.sum_range_add, ← Fin.sum_univ_eq_sum_range (fun r => colEntry X b c (n + r)) 8192]
  exact congrArg (_ + ·) (Finset.sum_congr rfl fun r _ => hT r)

/-- The prefix sum over all 32768 entries is the column's sum. -/
theorem colPrefix_full (b : Fin 8) (c : Fin 128) : colPrefix X b c 32768 = colSumAt X b c := by
  unfold colPrefix colSumAt
  rw [← Fin.sum_univ_eq_sum_range (fun d => colEntry X b c d) 32768]
  exact Finset.sum_congr rfl fun d _ => by unfold colEntry; rw [dif_pos d.isLt]

/-- The column sums as an array [8, 1, 128]. -/
def colSum : SS.Idx → EReal :=
  fun i => colSumAt X ⟨(i 0).val, (i 0).isLt⟩ ⟨(i 2).val, (i 2).isLt⟩

theorem colSum_ix3 (b : Fin 8) (u : Fin 1) (c : Fin 128) : colSum X (ix3 b u c) = colSumAt X b c := rfl

/-! ## The result -/

variable (A B Bias : SM.Idx → EReal)

/-- The result at (b, d, o) from x, alpha, beta, bias and ANY array `S` [8, 1, 128] in the place of the column sums. -/
def combineAt (S : SS.Idx → EReal) (b : Fin 8) (d : Fin 32768) (o : Fin 128) : EReal :=
  ((∑ c : Fin 128, X (ix3 b d c) * A (ix2 c o)) + ∑ c : Fin 128, S (ix3 b (0 : Fin 1) c) * B (ix2 c o))
      * ((1 / 128 : ℝ) : EReal)
    + (∑ r : Fin 128, Bias (ix2 r o)) * ((1 / 128 : ℝ) : EReal)

/-- The same as an array [8, 32768, 128]. -/
def combine (S : SS.Idx → EReal) : SX.Idx → EReal :=
  fun i => combineAt X A B Bias S ⟨(i 0).val, (i 0).isLt⟩ ⟨(i 1).val, (i 1).isLt⟩ ⟨(i 2).val, (i 2).isLt⟩

theorem combine_ix3 (S : SS.Idx → EReal) (b : Fin 8) (d : Fin 32768) (o : Fin 128) :
    combine X A B Bias S (ix3 b d o) = combineAt X A B Bias S b d o := rfl

/-- THE RESULT: `combine` at the column sums of x. -/
def result : SX.Idx → EReal := combine X A B Bias (colSum X)

end Cert.Spec

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.Payloads.lean ====
/-
  What the two kernel bodies store, read at an index of the stored block, over the extended reals.

  The first kernel's body stores either the zero row (on the first tile of a column sweep) or, into a row
  `acc` [1, 1, 128] it has read, `acc + (sum over the 8192 rows of the tile x [1, 8192, 128])`.
  The second kernel's body stores, from a tile x0 [1, 8192, 128], the matrices alpha, beta, bias and a row
  s [1, 1, 128], the block whose entry (r, o) is

      ((Σ_c x0(r,c) · alpha(c,o)) + (Σ_c s(c) · beta(c,o))) · (1/128) + (Σ_r' bias(r',o)) · (1/128).

  Roundings to bf16 on the way into the products are the identity on the extended reals, a product into a zero
  accumulator is the plain sum of products, and a division by the word of 128 is the product with 1/128.
-/
import proofs.«172899_j57939108823731_1_alg».proof.Proof.Gen.KernelIdeal.Skeleton
import proofs.«172899_j57939108823731_1_alg».proof.Proof.Spec
import proofs.«172899_j57939108823731_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payloads

open Cert.KernelIdeal Cert.KernelIdeal.Gen Idealize.ShloMosaic Idealize.ShloMosaic.ValueIdx

/-- A sum along the FIRST axis of an [R, C] array, from the zero word, read at column `c`: the sum over the rows. -/
theorem colReduce_apply {R C : ℕ} (src : FVec Ideal ⟨2, ![R, C]⟩ .f32) (h : (⟨2, ![R, C]⟩ : Shape).Reduces [0] ⟨1, ![C]⟩)
    (hφ : FKind.Formats .f32) (hacc : (0x00000000#32 : BitVec 32) = FKind.add.neutral .f32 hφ) (c : Fin C) :
    multiReduction .add [0] ⟨1, ![C]⟩ src 0x00000000#32 h hφ hacc (ix1 c) = ∑ r : Fin R, src (ix2 r c) := by
  refine (Ideal.multiReduction_add_single src 0x00000000#32 h hφ hacc (ix1 c)).trans ?_
  exact Finset.sum_congr rfl fun r _ => congrArg src (funext fun a => Fin.ext (by
    match a with
    | ⟨0, _⟩ => rfl
    | ⟨1, _⟩ => rfl))

/-- The row the first kernel stores on the first tile of a sweep is zero. -/
theorem zeroRow_apply (i : S1x1x128.Idx) : k0_pay1 (F := Ideal) i = 0 :=
  (show k0_pay1 (F := Ideal) i = Ideal.ofBits .f32 0x00000000#32 from rfl).trans Ideal.ofBits_zero_f32

/-- The row the first kernel stores: the row it read plus the tile's column sums. -/
theorem accRow_apply (acc : FVec Ideal S1x1x128 .f32) (x : FVec Ideal S1x8192x128 .f32) (u0 u1 : Fin 1) (c : Fin 128) :
    k0_pay2 (F := Ideal) acc x (ix3 u0 u1 c) = acc (ix3 (0 : Fin 1) u1 c) + ∑ r : Fin 8192, x (ix3 (0 : Fin 1) r c) := by
  unfold k0_pay2
  refine (shapeCast_ab_1ab_apply _ _ u0 u1 c).trans ?_
  refine (addf_apply _ _ _).trans ?_
  refine congrArg₂ (· + ·) ?_ ?_
  · exact shapeCast_1ab_ab_apply acc _ u1 c
  · refine (shapeCast_a_1a_apply _ _ u1 c).trans ?_
    refine (colReduce_apply _ _ _ _ c).trans ?_
    exact Finset.sum_congr rfl fun r _ => shapeCast_1ab_ab_apply x _ r c

/-- The block the second kernel stores, at (r, o). -/
theorem outBlock_apply (x0 : FVec Ideal S1x8192x128 .f32) (al be : FVec Ideal S128x128 .f32) (s : FVec Ideal S1x1x128 .f32)
    (bias : FVec Ideal S128x128 .f32) (u : Fin 1) (r : Fin 8192) (o : Fin 128) :
    k1_pay1 (F := Ideal) x0 al be s bias (ix3 u r o)
      = ((∑ c : Fin 128, x0 (ix3 (0 : Fin 1) r c) * al (ix2 c o)) + ∑ c : Fin 128, s (ix3 (0 : Fin 1) (0 : Fin 1) c) * be (ix2 c o))
          * ((1 / 128 : ℝ) : EReal)
        + (∑ r' : Fin 128, bias (ix2 r' o)) * ((1 / 128 : ℝ) : EReal) := by
  unfold k1_pay1
  refine (shapeCast_ab_1ab_apply _ _ u r o).trans ?_
  refine (addf_apply _ _ _).trans ?_
  refine congrArg₂ (· + ·) ?_ ?_
  · refine (mulf_apply _ _ _).trans ?_
    refine congrArg₂ (· * ·) ?_ ?_
    · refine (addf_apply _ _ _).trans ?_
      refine congrArg₂ (· + ·) ?_ ?_
      · refine (Cert.LibPlainDot.matmul_zero_apply dot_S8192x128_S128x128_S8192x128_1_0_0_1_n_n_wf none _ _ r o).trans ?_
        exact Finset.sum_congr rfl fun c _ => congrArg₂ (· * ·) (shapeCast_1ab_ab_apply x0 _ r c) rfl
      · refine (broadcastTo_1b_ab_apply _ _ r o).trans ?_
        refine (Cert.LibPlainDot.matmul_zero_apply dot_S1x128_S128x128_S1x128_1_0_0_1_n_n_wf none _ _ (0 : Fin 1) o).trans ?_
        exact Finset.sum_congr rfl fun c _ => congrArg₂ (· * ·) (shapeCast_1ab_ab_apply s _ (0 : Fin 1) c) rfl
    · exact Cert.Spec.ofBits_inv128
  · refine (broadcastTo_1b_ab_apply _ _ r o).trans ?_
    refine (divf_apply _ _ _).trans ?_
    refine (Cert.Spec.div_128 _).trans ?_
    refine congrArg (· * ((1 / 128 : ℝ) : EReal)) ?_
    refine (shapeCast_a_1a_apply _ _ (0 : Fin 1) o).trans ?_
    exact colReduce_apply bias _ _ _ o

end Cert.KernelIdeal.Payloads

end
-- ==== Proof.SumValue.lean ====
/-
  The first kernel: the column sums of x.

  Its grid is 8 × 4 points, point t = 4·b + k. At point t the input block is rows 8192·k … 8192·k + 8191 of
  slab b of x, and the output block is row b of the [8, 1, 128] array — the same block for the four points of a
  sweep, so the row stays in its staging buffer from k = 0 to k = 3 and is written back once, after k = 3.
  The body zeroes the row when k = 0 and then adds the block's column sums to it. So after point t the row holds,
  at lane l, the sum of the first 8192·(k + 1) entries of column (b, ·, l) of x (induction on t), and what is written
  back after k = 3 is the whole column's sum: the array ends as the column sums of x.
-/
import proofs.«172899_j57939108823731_1_alg».proof.Proof.Gen.KernelIdeal.Frame
import proofs.«172899_j57939108823731_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.SumValue

open Cert.KernelIdeal Cert.KernelIdeal.Gen

theorem hz3 : (![0, 0, 0] : Fin 3 → Nat) = fun _ => 0 := funext fun a => by fin_cases a <;> rfl

/-! ## What the body leaves in the row, in its two cases -/

section AnyValues
variable {F : FTy → Type} [FloatOps F]

/-- Away from the start of a sweep the body leaves `acc + (column sums of the block)` over the row `acc` it found. -/
theorem out_B (c : Dev nD) (i : grid0.Coords) (a2 : Memref sig .tc .vmem S1x8192x128 .f32) (h2 : a2.IsWhole)
    (a3 : Memref sig .tc .vmem S1x1x128 .f32) (h3 : a3.IsWhole) (hc : ¬cond0_0 i)
    (x : Vec F S1x8192x128 .f32) (acc : Vec F S1x1x128 .f32) :
    out0_B_1 c i a2 h2 a3 h3 hc x acc = k0_pay2 acc x := by
  unfold out0_B_1
  rw [View.read_writes_eq_canon _ _ _ (cover0_B_1 c i a2 h2 a3 h3 hc x acc)]
  unfold kernelRun0_B
  dsimp only
  rw [View.canon_unit_zero hz3]
  simp only [View.readAt_eq_ld, h2.read_unread, h3.read_unread, View.ld_unit_zero (S := S1x1x128) hz3,
    View.ld_unit_zero (S := S1x8192x128) hz3]

/-- At the start of a sweep the body stores the zero row, reads it back, and leaves `0 + (column sums of the block)`. -/
theorem out_A (c : Dev nD) (i : grid0.Coords) (a2 : Memref sig .tc .vmem S1x8192x128 .f32) (h2 : a2.IsWhole)
    (a3 : Memref sig .tc .vmem S1x1x128 .f32) (h3 : a3.IsWhole) (hc : cond0_0 i) (x : Vec F S1x8192x128 .f32) :
    out0_A_1 c i a2 h2 a3 h3 hc x = k0_pay2 k0_pay1 x := by
  unfold out0_A_1
  rw [View.read_writes_eq_canon _ _ _ (cover0_A_1 c i a2 h2 a3 h3 hc x)]
  unfold kernelRun0_A
  dsimp only
  sl_unfold_words
  rw [View.canon_cons_unit_zero (S := S1x1x128) hz3, View.readCov_unit_zero (S := S1x1x128) _ hz3]
  simp only [View.readAt_eq_ld, h2.read_unread, View.ld_unit_zero (S := S1x8192x128) hz3]

end AnyValues

/-! ## Where the blocks sit -/

/-- At point t = 4·b + k the input block is block (b, k, 0) of x and the output block is block (b, 0, 0). -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = 0 ∧ win0_1.index t (2 : Fin 3) = 0 :=
  (by decide +kernel : ∀ t : Fin grid0.N, _)

variable (V : (c : Dev nD) → (b : Ref sig .tc) → Buf (Elt Ideal) ((c : Thread nD τ).loc b))

/-- The input block at point t, as a [1, 8192, 128] array. -/
abbrev xblk (c : Dev nD) (t : Fin cfg0.N) : FVec Ideal S1x8192x128 .f32 := iblk0 V c 0 t

/-- Row r, lane l of the input block at point t is entry 8192·k + r of column (b, ·, l) of x. -/
theorem iblk_entry (c : Dev nD) (t : Fin cfg0.N) (b : Fin 8) (hb : b.val = t.val / 4) (n0 : ℕ) (hn0 : n0 = 8192 * (t.val % 4))
    (r : Fin 8192) (l : Fin 128) :
    xblk V c t (ix3 (0 : Fin 1) r l) = Cert.Spec.colEntry (V c main_arg0) b l (n0 + r.val) := by
  obtain ⟨e0, e1, e2, -, -, -⟩ := idx_facts t
  have hN : t.val < 32 := lt_of_lt_of_eq t.isLt (show cfg0.N = 32 from N_0)
  have hr : r.val < 8192 := r.isLt
  have hlt : n0 + r.val < 32768 := by omega
  unfold Cert.Spec.colEntry
  rw [dif_pos hlt]
  unfold xblk iblk0
  rw [View.read_apply]
  show V c main_arg0 _ = V c main_arg0 _
  refine congrArg (V c main_arg0) (funext fun a => Fin.ext ?_)
  match a with
  | ⟨0, _⟩ => show win0_0.index t (0 : Fin 3) * 1 + 1 * 0 = b.val; omega
  | ⟨1, _⟩ => show win0_0.index t (1 : Fin 3) * 8192 + 1 * r.val = n0 + r.val; omega
  | ⟨2, _⟩ => show win0_0.index t (2 : Fin 3) * 128 + 1 * l.val = l.val; omega

/-- One point's step: a prefix sum of the column plus the block's column sum is the prefix sum 8192 entries further. -/
theorem step (c : Dev nD) (t : Fin cfg0.N) (b : Fin 8) (hb : b.val = t.val / 4) (l : Fin 128) (n0 : ℕ) (hn0 : n0 = 8192 * (t.val % 4))
    (acc : EReal) (hacc : acc = Cert.Spec.colPrefix (V c main_arg0) b l n0) :
    acc + ∑ r : Fin 8192, xblk V c t (ix3 (0 : Fin 1) r l)
      = Cert.Spec.colPrefix (V c main_arg0) b l (n0 + 8192) := by
  rw [hacc]
  exact Cert.Spec.colPrefix_add (V c main_arg0) b l n0 _ (fun r => iblk_entry V c t b hb n0 hn0 r l)

/-! ## The row after each point -/

/-- After point n = 4·b + k the row holds, at lane l, the sum of the first 8192·(k + 1) entries of column (b, ·, l). -/
theorem outsAt_apply (c : Dev nD) : ∀ (n : ℕ) (h : n < cfg0.N) (b : Fin 8) (hb : b.val = n / 4) (u0 u1 : Fin 1) (l : Fin 128),
    outsAt0 V c n h (ix3 u0 u1 l) = Cert.Spec.colPrefix (V c main_arg0) b l (8192 * (n % 4) + 8192)
  | 0, h, b, hb, u0, u1, l => by
    rw [outsAt0_A V c ⟨0, h⟩ rfl, out_A]
    refine (Payloads.accRow_apply _ _ u0 u1 l).trans ?_
    rw [Payloads.zeroRow_apply]
    exact step V c ⟨0, h⟩ b hb l 0 rfl 0 (Cert.Spec.colPrefix_zero _ b l).symm
  | n + 1, h, b, hb, u0, u1, l => by
    by_cases h0 : (n + 1) % 4 = 0
    · rw [outsAt0_A V c ⟨n + 1, h⟩ h0, out_A]
      refine (Payloads.accRow_apply _ _ u0 u1 l).trans ?_
      rw [Payloads.zeroRow_apply]
      refine (step V c ⟨n + 1, h⟩ b hb l 0 (by show 0 = 8192 * ((n + 1) % 4); omega) 0 (Cert.Spec.colPrefix_zero _ b l).symm).trans
        (congrArg (Cert.Spec.colPrefix (V c main_arg0) b l) (by omega))
    · rw [outsAt0_B V c ⟨n + 1, h⟩ h0, out_B]
      refine (Payloads.accRow_apply _ _ u0 u1 l).trans ?_
      refine (step V c ⟨n + 1, h⟩ b hb l (8192 * (n % 4) + 8192) (by show 8192 * (n % 4) + 8192 = 8192 * ((n + 1) % 4); omega) _ ?_).trans
        (congrArg (Cert.Spec.colPrefix (V c main_arg0) b l) (by omega))
      exact outsAt_apply c n _ b (by omega) 0 u1 l

/-! ## What is written back, and the array after the run -/

/-- The write-back after the last point of a sweep writes row b of the column sums of x. -/
theorem flushed_eq (c : Dev nD) (t : Fin cfg0.N) (hf : (cfg0.win 1).flush t = true) :
    (dat0 V c).flushed 1 t = ((cfg0.win 1).blk t).view.read (Elt Ideal) (Cert.Spec.colSum (V c main_arg0)) := by
  have h3 : t.val % 4 = 3 := (flush0_1 t).mp hf
  have hN : t.val < 32 := lt_of_lt_of_eq t.isLt (show cfg0.N = 32 from N_0)
  obtain ⟨-, -, -, e0, e1, e2⟩ := idx_facts t
  show (cfg0.win 1).cut (grid0.coords t) ((dat0 V c).after 1 t) = _
  rw [after0_1]
  funext j
  have hj0 : (j 0).val < 1 := (j 0).isLt
  have hj1 : (j 1).val < 1 := (j 1).isLt
  have hj2 : (j 2).val < 128 := (j 2).isLt
  have hb8 : t.val / 4 < 8 := by omega
  have hE : ((cfg0.win 1).blk t).view.emb j = ix3 (⟨t.val / 4, hb8⟩ : Fin 8) (0 : Fin 1) (⟨(j 2).val, hj2⟩ : Fin 128) := by
    funext a; apply Fin.ext
    match a with
    | ⟨0, _⟩ => show win0_1.index t (0 : Fin 3) * 1 + 1 * (j 0).val = t.val / 4; omega
    | ⟨1, _⟩ => show win0_1.index t (1 : Fin 3) * 1 + 1 * (j 1).val = 0; omega
    | ⟨2, _⟩ => show win0_1.index t (2 : Fin 3) * 128 + 1 * (j 2).val = (j 2).val; omega
  have hX : (cfg0.win 1).xinj (grid0.coords t) j
      = ix3 (⟨(j 0).val, hj0⟩ : Fin 1) (⟨(j 1).val, hj1⟩ : Fin 1) (⟨(j 2).val, hj2⟩ : Fin 128) :=
    funext fun a => by
      match a with
      | ⟨0, _⟩ => rfl
      | ⟨1, _⟩ => rfl
      | ⟨2, _⟩ => rfl
  rw [View.read_apply]
  show outsAt0 V c t.val t.isLt ((cfg0.win 1).xinj (grid0.coords t) j) = _
  rw [hX, hE, Cert.Spec.colSum_ix3, outsAt_apply V c t.val t.isLt ⟨t.val / 4, hb8⟩ rfl _ _ _]
  have e : 8192 * (t.val % 4) + 8192 = 32768 := by omega
  rw [e]
  exact (Cert.Spec.colPrefix_full (V c main_arg0) _ _).trans (cast_eq _ _).symm

/-- An index of the [8, 1, 128] array is in point t's output block iff each coordinate is in the block's range. -/
theorem mem_blk (t : Fin cfg0.N) (i : S8x1x128.Idx) :
    i ∈ ((cfg0.win 1).blk t).view.set ↔ ∀ a : Fin 3, win0_1.index t a * S1x1x128.size a ≤ (i a).val
      ∧ (i a).val < win0_1.index t a * S1x1x128.size a + S1x1x128.size a := by
  show i ∈ ((View.whole main_v0).slice (win0_1.rect t)).set ↔ _
  rw [View.set_slice_whole, Rect.mem_set_unit]
  exact Iff.rfl

/-- Row b is written back after point 4·b + 3. -/
theorem cover (i : S8x1x128.Idx) : ∃ t : Fin cfg0.N, (cfg0.win 1).flush t = true ∧ i ∈ ((cfg0.win 1).blk t).view.set := by
  have hi0 : (i 0).val < 8 := (i 0).isLt
  have hi1 : (i 1).val < 1 := (i 1).isLt
  have hi2 : (i 2).val < 128 := (i 2).isLt
  have hlt : 4 * (i 0).val + 3 < cfg0.N := by rw [show cfg0.N = 32 from N_0]; omega
  have hv : (⟨4 * (i 0).val + 3, hlt⟩ : Fin cfg0.N).val = 4 * (i 0).val + 3 := rfl
  generalize (⟨4 * (i 0).val + 3, hlt⟩ : Fin cfg0.N) = t at hv
  obtain ⟨-, -, -, e0, e1, e2⟩ := idx_facts t
  refine ⟨t, (flush0_1 t).mpr (by omega), ?_⟩
  rw [mem_blk]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1 ≤ (i 1).val ∧ (i 1).val < win0_1.index t (1 : Fin 3) * 1 + 1; omega
  | ⟨2, _⟩ => show win0_1.index t (2 : Fin 3) * 128 ≤ (i 2).val ∧ (i 2).val < win0_1.index t (2 : Fin 3) * 128 + 128; omega

/-- THE FIRST KERNEL'S RESULT: its output array ends as the column sums of x as the kernel found it. -/
theorem final (c : Dev nD) : (dat0 V c).arrAt 1 cfg0.N = Cert.Spec.colSum (V c main_arg0) :=
  (dat0 V c).arrAt_eq_of_cover 1 (Cert.Spec.colSum (V c main_arg0)) (flushed_eq V c) cover

end Cert.KernelIdeal.SumValue

end
-- ==== Proof.MainValue.lean ====
/-
  The second kernel: the result from x, alpha, beta, bias and the row sums the first kernel left.

  Its grid is again 8 × 4 points, point t = 4·b + k. At point t it reads rows 8192·k … of slab b of x, the whole
  of alpha, beta and bias, and row b of the [8, 1, 128] array s; it writes rows 8192·k … of slab b of the result,
  once per point. The stored block at (r, o) is

      ((Σ_c x(b, 8192·k + r, c) · alpha(c,o)) + (Σ_c s(b,0,c) · beta(c,o))) · (1/128) + (Σ_r' bias(r',o)) · (1/128),

  which is the spec's `combine` read at (b, 8192·k + r, o). The 32 output blocks tile the result array, so the
  array ends as `combine` of the arrays the kernel found.
-/
import proofs.«172899_j57939108823731_1_alg».proof.Proof.Gen.KernelIdeal.Frame
import proofs.«172899_j57939108823731_1_alg».proof.Proof.Payloads
import Idealize.ShloMosaic.Lib.Pipeline.Value
import Idealize.ShloMosaic.Lib.ValueIdx
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.MainValue

open Cert.KernelIdeal Cert.KernelIdeal.Gen

theorem hz3 : (![0, 0, 0] : Fin 3 → Nat) = fun _ => 0 := funext fun a => by fin_cases a <;> rfl
theorem hz2 : (![0, 0] : Fin 2 → Nat) = fun _ => 0 := funext fun a => by fin_cases a <;> rfl

/-- At point t = 4·b + k: x's block and the result's block are (b, k, 0); alpha, beta, bias are read whole; the row of
    sums is block (b, 0, 0). -/
theorem idx_facts : ∀ t : Fin cfg1.N,
    win1_0.index t (0 : Fin 3) = t.val / 4 ∧ win1_0.index t (1 : Fin 3) = t.val % 4 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 4 ∧ win1_4.index t (1 : Fin 3) = 0 ∧ win1_4.index t (2 : Fin 3) = 0
    ∧ win1_5.index t (0 : Fin 3) = t.val / 4 ∧ win1_5.index t (1 : Fin 3) = t.val % 4 ∧ win1_5.index t (2 : Fin 3) = 0 :=
  (by decide +kernel : ∀ t : Fin grid1.N, _)

variable (V : (c : Dev nD) → (b : Ref sig .tc) → Buf (Elt Ideal) ((c : Thread nD τ).loc b))

/-! ## The input blocks, read where the output block says -/

theorem xblk_apply (c : Dev nD) (t : Fin cfg1.N) (b : Fin 8) (hb : b.val = t.val / 4) (d : Fin 32768) (r : Fin 8192)
    (hd : d.val = 8192 * (t.val % 4) + r.val) (k : Fin 128) :
    (iblk1 V c 0 t : Vec Ideal S1x8192x128 .f32) (ix3 (0 : Fin 1) r k) = V c main_arg0 (ix3 b d k) := by
  obtain ⟨e0, e1, e2, -⟩ := idx_facts t
  unfold iblk1
  rw [View.read_apply]
  show V c main_arg0 _ = V c main_arg0 _
  refine congrArg (V c main_arg0) (funext fun a => Fin.ext ?_)
  match a with
  | ⟨0, _⟩ => show win1_0.index t (0 : Fin 3) * 1 + 1 * 0 = b.val; omega
  | ⟨1, _⟩ => show win1_0.index t (1 : Fin 3) * 8192 + 1 * r.val = d.val; omega
  | ⟨2, _⟩ => show win1_0.index t (2 : Fin 3) * 128 + 1 * k.val = k.val; omega

theorem ablk_apply (c : Dev nD) (t : Fin cfg1.N) (k o : Fin 128) :
    (iblk1 V c 1 t : Vec Ideal S128x128 .f32) (ix2 k o) = V c main_arg1 (ix2 k o) := by
  obtain ⟨-, -, -, e0, e1, -⟩ := idx_facts t
  unfold iblk1
  rw [View.read_apply]
  show V c main_arg1 _ = V c main_arg1 _
  refine congrArg (V c main_arg1) (funext fun a => Fin.ext ?_)
  match a with
  | ⟨0, _⟩ => show win1_1.index t (0 : Fin 2) * 128 + 1 * k.val = k.val; omega
  | ⟨1, _⟩ => show win1_1.index t (1 : Fin 2) * 128 + 1 * o.val = o.val; omega

theorem bblk_apply (c : Dev nD) (t : Fin cfg1.N) (k o : Fin 128) :
    (iblk1 V c 2 t : Vec Ideal S128x128 .f32) (ix2 k o) = V c main_arg2 (ix2 k o) := by
  obtain ⟨-, -, -, -, -, e0, e1, -⟩ := idx_facts t
  unfold iblk1
  rw [View.read_apply]
  show V c main_arg2 _ = V c main_arg2 _
  refine congrArg (V c main_arg2) (funext fun a => Fin.ext ?_)
  match a with
  | ⟨0, _⟩ => show win1_2.index t (0 : Fin 2) * 128 + 1 * k.val = k.val; omega
  | ⟨1, _⟩ => show win1_2.index t (1 : Fin 2) * 128 + 1 * o.val = o.val; omega

theorem biasblk_apply (c : Dev nD) (t : Fin cfg1.N) (k o : Fin 128) :
    (iblk1 V c 3 t : Vec Ideal S128x128 .f32) (ix2 k o) = V c main_arg3 (ix2 k o) := by
  obtain ⟨-, -, -, -, -, -, -, e0, e1, -⟩ := idx_facts t
  unfold iblk1
  rw [View.read_apply]
  show V c main_arg3 _ = V c main_arg3 _
  refine congrArg (V c main_arg3) (funext fun a => Fin.ext ?_)
  match a with
  | ⟨0, _⟩ => show win1_3.index t (0 : Fin 2) * 128 + 1 * k.val = k.val; omega
  | ⟨1, _⟩ => show win1_3.index t (1 : Fin 2) * 128 + 1 * o.val = o.val; omega

theorem sblk_apply (c : Dev nD) (t : Fin cfg1.N) (b : Fin 8) (hb : b.val = t.val / 4) (k : Fin 128) :
    (iblk1 V c 4 t : Vec Ideal S1x1x128 .f32) (ix3 (0 : Fin 1) (0 : Fin 1) k) = V c main_v0 (ix3 b (0 : Fin 1) k) := by
  obtain ⟨-, -, -, -, -, -, -, -, -, e0, e1, e2, -⟩ := idx_facts t
  unfold iblk1
  rw [View.read_apply]
  show V c main_v0 _ = V c main_v0 _
  refine congrArg (V c main_v0) (funext fun a => Fin.ext ?_)
  match a with
  | ⟨0, _⟩ => show win1_4.index t (0 : Fin 3) * 1 + 1 * 0 = b.val; omega
  | ⟨1, _⟩ => show win1_4.index t (1 : Fin 3) * 1 + 1 * 0 = 0; omega
  | ⟨2, _⟩ => show win1_4.index t (2 : Fin 3) * 128 + 1 * k.val = k.val; omega

/-! ## What a point writes back, and the array after the run -/

/-- The function the result array ends holding: `combine` of the five arrays as the kernel finds them. -/
abbrev G (c : Dev nD) : Cert.Spec.SX.Idx → EReal :=
  Cert.Spec.combine (V c main_arg0) (V c main_arg1) (V c main_arg2) (V c main_arg3) (V c main_v0)

/-- Point t writes back block t of `G`. -/
theorem flushed_eq (c : Dev nD) (t : Fin cfg1.N) :
    (dat1 V c).flushed 5 t = ((cfg1.win 5).blk t).view.read (Elt Ideal) (G V c) := by
  have hN : t.val < 32 := lt_of_lt_of_eq t.isLt (show cfg1.N = 32 from N_1)
  obtain ⟨-, -, -, -, -, -, -, -, -, -, -, -, e0, e1, e2⟩ := idx_facts t
  show (cfg1.win 5).cut (grid1.coords t) ((dat1 V c).after 5 t) = _
  rw [after1_5]
  unfold out1_5
  rw [View.canon_unit_zero hz3]
  simp only [View.ld_unit_zero (S := S1x8192x128) hz3, View.ld_unit_zero (S := S128x128) hz2, View.ld_unit_zero (S := S1x1x128) hz3]
  funext j
  have hj0 : (j 0).val < 1 := (j 0).isLt
  have hj1 : (j 1).val < 8192 := (j 1).isLt
  have hj2 : (j 2).val < 128 := (j 2).isLt
  have hb8 : t.val / 4 < 8 := by omega
  have hd : 8192 * (t.val % 4) + (j 1).val < 32768 := by omega
  have hE : ((cfg1.win 5).blk t).view.emb j
      = ix3 (⟨t.val / 4, hb8⟩ : Fin 8) (⟨8192 * (t.val % 4) + (j 1).val, hd⟩ : Fin 32768) (⟨(j 2).val, hj2⟩ : Fin 128) := by
    funext a; apply Fin.ext
    match a with
    | ⟨0, _⟩ => show win1_5.index t (0 : Fin 3) * 1 + 1 * (j 0).val = t.val / 4; omega
    | ⟨1, _⟩ => show win1_5.index t (1 : Fin 3) * 8192 + 1 * (j 1).val = 8192 * (t.val % 4) + (j 1).val; omega
    | ⟨2, _⟩ => show win1_5.index t (2 : Fin 3) * 128 + 1 * (j 2).val = (j 2).val; omega
  show k1_pay1 (F := Ideal) (iblk1 V c 0 t) (iblk1 V c 1 t) (iblk1 V c 2 t) (iblk1 V c 4 t) (iblk1 V c 3 t)
      (ix3 (⟨(j 0).val, hj0⟩ : Fin 1) (⟨(j 1).val, hj1⟩ : Fin 8192) (⟨(j 2).val, hj2⟩ : Fin 128))
    = G V c (((cfg1.win 5).blk t).view.emb j)
  rw [hE]
  refine (Payloads.outBlock_apply (iblk1 V c 0 t) (iblk1 V c 1 t) (iblk1 V c 2 t) (iblk1 V c 4 t) (iblk1 V c 3 t)
    ⟨(j 0).val, hj0⟩ ⟨(j 1).val, hj1⟩ ⟨(j 2).val, hj2⟩).trans ?_
  show _ = Cert.Spec.combineAt (V c main_arg0) (V c main_arg1) (V c main_arg2) (V c main_arg3) (V c main_v0)
    ⟨t.val / 4, hb8⟩ ⟨8192 * (t.val % 4) + (j 1).val, hd⟩ ⟨(j 2).val, hj2⟩
  unfold Cert.Spec.combineAt
  refine congrArg₂ (· + ·) (congrArg (· * ((1 / 128 : ℝ) : EReal)) (congrArg₂ (· + ·) ?_ ?_)) (congrArg (· * ((1 / 128 : ℝ) : EReal)) ?_)
  · exact Finset.sum_congr rfl fun k _ => congrArg₂ (· * ·)
      (xblk_apply V c t ⟨t.val / 4, hb8⟩ rfl ⟨8192 * (t.val % 4) + (j 1).val, hd⟩ ⟨(j 1).val, hj1⟩ rfl k)
      (ablk_apply V c t k ⟨(j 2).val, hj2⟩)
  · exact Finset.sum_congr rfl fun k _ => congrArg₂ (· * ·)
      (sblk_apply V c t ⟨t.val / 4, hb8⟩ rfl k)
      (bblk_apply V c t k ⟨(j 2).val, hj2⟩)
  · exact Finset.sum_congr rfl fun k _ => biasblk_apply V c t k ⟨(j 2).val, hj2⟩

/-- An index of the result array is in point t's output block iff each coordinate is in the block's range. -/
theorem mem_blk (t : Fin cfg1.N) (i : S8x32768x128.Idx) :
    i ∈ ((cfg1.win 5).blk t).view.set ↔ ∀ a : Fin 3, win1_5.index t a * S1x8192x128.size a ≤ (i a).val
      ∧ (i a).val < win1_5.index t a * S1x8192x128.size a + S1x8192x128.size a := by
  show i ∈ ((View.whole main_v1).slice (win1_5.rect t)).set ↔ _
  rw [View.set_slice_whole, Rect.mem_set_unit]
  exact Iff.rfl

/-- Entry (b, d, o) is written at point 4·b + d / 8192. -/
theorem cover (i : S8x32768x128.Idx) : ∃ t : Fin cfg1.N, (cfg1.win 5).flush t = true ∧ i ∈ ((cfg1.win 5).blk t).view.set := by
  have hi0 : (i 0).val < 8 := (i 0).isLt
  have hi1 : (i 1).val < 32768 := (i 1).isLt
  have hi2 : (i 2).val < 128 := (i 2).isLt
  have hlt : 4 * (i 0).val + (i 1).val / 8192 < cfg1.N := by rw [show cfg1.N = 32 from N_1]; omega
  have hv : (⟨4 * (i 0).val + (i 1).val / 8192, hlt⟩ : Fin cfg1.N).val = 4 * (i 0).val + (i 1).val / 8192 := rfl
  generalize (⟨4 * (i 0).val + (i 1).val / 8192, hlt⟩ : Fin cfg1.N) = t at hv
  obtain ⟨-, -, -, -, -, -, -, -, -, -, -, -, e0, e1, e2⟩ := idx_facts t
  refine ⟨t, flush1_5 t, ?_⟩
  rw [mem_blk]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 8192 ≤ (i 1).val ∧ (i 1).val < win1_5.index t (1 : Fin 3) * 8192 + 8192; omega
  | ⟨2, _⟩ => show win1_5.index t (2 : Fin 3) * 128 ≤ (i 2).val ∧ (i 2).val < win1_5.index t (2 : Fin 3) * 128 + 128; omega

/-- THE SECOND KERNEL'S RESULT: its output array ends as `combine` of the arrays it found. -/
theorem final (c : Dev nD) : (dat1 V c).arrAt 5 cfg1.N = G V c :=
  (dat1 V c).arrAt_eq_of_cover 5 (G V c) (fun t _ => flushed_eq V c t) cover

end Cert.KernelIdeal.MainValue

end
-- ==== Proof.KernelValue.lean ====
/-
  The kernel program's result: the two launches composed.

  The second launch finds x, alpha, beta and bias as launched (the first launch only reads x and writes the
  [8, 1, 128] array) and finds that array at the column sums of x. So its `combine` of what it finds is the spec's
  `result` of the launch contents of the four arguments, and the program's run ends with the result buffer there.
-/
import proofs.«172899_j57939108823731_1_alg».proof.Proof.KernelRun
import proofs.«172899_j57939108823731_1_alg».proof.Proof.SumValue
import proofs.«172899_j57939108823731_1_alg».proof.Proof.MainValue

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-! ## What the second launch finds -/

theorem found_x (c : Dev nD) : V1 m ρ c main_arg0 = m ((c : Thread nD τ).loc main_arg0) :=
  (W1_arr m ρ c 0).trans (((dat0 (V0 m ρ) c).arrAt_in 0 rfl _).trans (A_eq0 (V0 m ρ) c 0))
theorem found_alpha (c : Dev nD) : V1 m ρ c main_arg1 = m ((c : Thread nD τ).loc main_arg1) :=
  W1_of_ne m ρ c main_arg1 (by decide)
theorem found_beta (c : Dev nD) : V1 m ρ c main_arg2 = m ((c : Thread nD τ).loc main_arg2) :=
  W1_of_ne m ρ c main_arg2 (by decide)
theorem found_bias (c : Dev nD) : V1 m ρ c main_arg3 = m ((c : Thread nD τ).loc main_arg3) :=
  W1_of_ne m ρ c main_arg3 (by decide)
/-- The [8, 1, 128] array is at the column sums of x as launched. -/
theorem found_sums (c : Dev nD) : V1 m ρ c main_v0 = Cert.Spec.colSum (m ((c : Thread nD τ).loc main_arg0)) :=
  (W1_arr m ρ c 1).trans (SumValue.final (V0 m ρ) c)

/-! ## The result buffer after both launches -/

theorem result_eq (c : Dev nD) :
    W2 m ρ c (Proc.devRef .tc main_v1)
      = Cert.Spec.result (m ((c : Thread nD τ).loc main_arg0)) (m ((c : Thread nD τ).loc main_arg1))
          (m ((c : Thread nD τ).loc main_arg2)) (m ((c : Thread nD τ).loc main_arg3)) := by
  refine (W2_arr m ρ c 5).trans ?_
  refine (MainValue.final (V1 m ρ) c).trans ?_
  show Cert.Spec.combine (V1 m ρ c main_arg0) (V1 m ρ c main_arg1) (V1 m ρ c main_arg2) (V1 m ρ c main_arg3) (V1 m ρ c main_v0) = _
  rw [found_x, found_alpha, found_beta, found_bias, found_sums]
  rfl

/-- THE KERNEL PROGRAM'S RUN: every weakly fair execution terminates, nothing faulting, with the result buffer at
    `result` of the arguments' launch contents and the arguments unchanged. -/
theorem run : θ_run defs (onTc (τ := τ) (main (F := Ideal))) ⟨m, fun _ => 0, ρ⟩ fun r => ∀ c : Dev nD,
      r.2.mem ((c.tc : Thread nD τ).loc main_v1)
        = Cert.Spec.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result_eq m ρ c), (h c).2⟩) (RunValue.run_main m ρ)

end Cert.KernelIdeal.Value

end
-- ==== Proof.RefValue.lean ====
/-
  The reference program's result is the spec's `result`, index by index.

  The reference computes, on the host, the column sums of x (a sum over axis 1 from zero), the two products
  x · alpha and (column sums) · beta as dot_generals, their sum divided by 128, and the mean of bias over its rows
  (a sum from zero divided by 128), broadcast and added. On the extended reals a sum from zero is the sum, and a
  division by the word of 128 is the product with 1/128: the term is `result`.
-/
import proofs.«172899_j57939108823731_1_alg».proof.Proof.Gen.ReferenceIdeal.Read
import proofs.«172899_j57939108823731_1_alg».proof.Proof.Spec

noncomputable section

open scoped BigOperators

namespace Cert.ReferenceIdeal.RefValue

open Cert.ReferenceIdeal Cert.ReferenceIdeal.Read Idealize.ShloMosaic Idealize.ShloMosaic.ValueIdx

/-- The reference's last stage at (b, d, o). -/
theorem stage_apply (x0 : FVec Ideal S8x32768x128 .f32) (x1 x2 x3 : FVec Ideal S128x128 .f32)
    (b : Fin 8) (d : Fin 32768) (o : Fin 128) :
    val_main_v13 (F := Ideal) x0 x1 x2 x3 (ix3 b d o) = Cert.Spec.combineAt x0 x1 x2 x3 (Cert.Spec.colSum x0) b d o := by
  have e2l : ∀ k : Fin 128, lidx_main_v2 (ix3 b d o) k = ix3 b d k := fun k => funext fun a => Fin.ext (by
    match a with | ⟨0, _⟩ => rfl | ⟨1, _⟩ => rfl | ⟨2, _⟩ => rfl)
  have e2r : ∀ k : Fin 128, ridx_main_v2 (ix3 b d o) k = ix2 k o := fun k => funext fun a => Fin.ext (by
    match a with | ⟨0, _⟩ => rfl | ⟨1, _⟩ => rfl)
  have e7 : idx_main_v7 (ix3 b d o) = ix3 b (0 : Fin 1) o := funext fun a => Fin.ext (by
    match a with | ⟨0, _⟩ => rfl | ⟨1, _⟩ => rfl | ⟨2, _⟩ => rfl)
  have e3l : ∀ k : Fin 128, lidx_main_v3 (ix3 b (0 : Fin 1) o) k = ix3 b (0 : Fin 1) k := fun k => funext fun a => Fin.ext (by
    match a with | ⟨0, _⟩ => rfl | ⟨1, _⟩ => rfl | ⟨2, _⟩ => rfl)
  have e3r : ∀ k : Fin 128, ridx_main_v3 (ix3 b (0 : Fin 1) o) k = ix2 k o := fun k => funext fun a => Fin.ext (by
    match a with | ⟨0, _⟩ => rfl | ⟨1, _⟩ => rfl)
  have e1 : ∀ k : Fin 128, idx_main_v1 (ix3 b (0 : Fin 1) k) = ix2 b k := fun k => funext fun a => Fin.ext (by
    match a with | ⟨0, _⟩ => rfl | ⟨1, _⟩ => rfl)
  have e0 : ∀ (k : Fin 128) (q : Fin 32768), idx_main_v0 (ix2 b k) q = ix3 b q k := fun k q => funext fun a => Fin.ext (by
    match a with | ⟨0, _⟩ => rfl | ⟨1, _⟩ => rfl | ⟨2, _⟩ => rfl)
  have e12 : idx_main_v12 (ix3 b d o) = ix3 (0 : Fin 1) (0 : Fin 1) o := funext fun a => Fin.ext (by
    match a with | ⟨0, _⟩ => rfl | ⟨1, _⟩ => rfl | ⟨2, _⟩ => rfl)
  have e11 : idx_main_v11 (ix3 (0 : Fin 1) (0 : Fin 1) o) = ix1 o := funext fun a => Fin.ext (by
    match a with | ⟨0, _⟩ => rfl)
  have e4 : ∀ q : Fin 128, idx_main_v4 (ix1 o) q = ix2 q o := fun q => funext fun a => Fin.ext (by
    match a with | ⟨0, _⟩ => rfl | ⟨1, _⟩ => rfl)
  rw [val_main_v13_apply, val_main_v10_apply, val_main_v8_apply, val_main_v2_apply, val_main_v7_apply, e7, val_main_v3_apply,
    val_main_v9_apply, val_main_cst_2_apply, val_main_v12_apply, e12, val_main_v11_apply, e11, val_main_v6_apply,
    val_main_v4_apply, val_main_v5_apply, val_main_cst_1_apply, val_main_cst_0_apply]
  simp only [e2l, e2r, e3l, e3r, e4, val_main_v1_apply, e1, val_main_v0_apply, e0, val_main_cst_apply,
    Ideal.ofBits_def, Ideal.addf_def, Ideal.hostDivf_def, Ideal.ofBits_zero_f32, zero_add, Cert.Spec.div_128]
  rfl

/-- THE REFERENCE'S RESULT: the term its run states for the result buffer is `result` of the arguments. -/
theorem result_eq (x0 : FVec Ideal S8x32768x128 .f32) (x1 x2 x3 : FVec Ideal S128x128 .f32) :
    val_main_v13 (F := Ideal) x0 x1 x2 x3 = Cert.Spec.result x0 x1 x2 x3 := by
  funext i
  obtain ⟨b, d, o, rfl⟩ : ∃ (b : Fin 8) (d : Fin 32768) (o : Fin 128), i = ix3 b d o := ⟨i 0, i 1, i 2, eq_ix3 i⟩
  exact stage_apply x0 x1 x2 x3 b d o

end Cert.ReferenceIdeal.RefValue

end
-- ==== Proof.lean ====
/-
  out[b,d,o] = ((x[b,d,:] · alpha[:,o]) + (s[b,:] · beta[:,o])) / 128 + mean_r bias[r,o],  s[b,c] = Σ_d x[b,d,c],
  computed by two kernel launches (the column sums s, accumulated over four tiles of 8192 rows from a zeroed row;
  then the combination, with the division by 128 spelt as a product with 1/128) against the same formula on the host.

  Over the extended reals the two programs compute one function of the arguments, `Cert.Spec.result`:
  the column sum taken 8192 entries at a time is the column sum (addition is associative and commutative there, at
  the infinities too, so no finiteness of the inputs is used); a rounding on the way into a product is the identity;
  a product into a zero accumulator is the plain sum of products; a sum from the zero word is the sum; and a division
  by the word of 128 is the product with 1/128, an exact power of two, on every extended real.

  The kernel program's run names its result buffer (Proof/KernelRun.lean) at the value the two launches leave
  (Proof/SumValue.lean, Proof/MainValue.lean, Proof/KernelValue.lean, over the stored blocks of Proof/Payloads.lean);
  the reference's run is read stage by stage (Proof/RefValue.lean). The idealization rewrote nothing, so `preserves`
  is `True`.
-/
import proofs.«172899_j57939108823731_1_alg».proof.Defs
import proofs.«172899_j57939108823731_1_alg».proof.Proof.Gen.Kernel
import proofs.«172899_j57939108823731_1_alg».proof.Proof.Gen.Kernel.Frame
import proofs.«172899_j57939108823731_1_alg».proof.Proof.Gen.KernelIdeal
import proofs.«172899_j57939108823731_1_alg».proof.Proof.Gen.KernelIdeal.Frame
import proofs.«172899_j57939108823731_1_alg».proof.Proof.Gen.ReferenceIdeal
import proofs.«172899_j57939108823731_1_alg».proof.Proof.Gen.ReferenceIdeal.Run
import proofs.«172899_j57939108823731_1_alg».proof.Proof.Gen.ReferenceIdeal.Read
import proofs.«172899_j57939108823731_1_alg».proof.Proof.Gen.Pre_finite_inputs
import proofs.«172899_j57939108823731_1_alg».proof.Proof.KernelValue
import proofs.«172899_j57939108823731_1_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at `Cert.Spec.result` of arguments that agree. -/
theorem algebraic : Cert.algebraic_KernelIdeal_ReferenceIdeal := by
  intro m ρ m' ρ' _ hagree
  refine ⟨_, Cert.KernelIdeal.Value.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v13_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
